-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  main_v38

def fn_part1 {F : FTy → Type} [FloatOps F] (main_arg5 : FVec F S64x64 .f32) (main_arg6 : FVec F S64x64 .f32) (main_arg7 : FVec F S64 .f32) (main_arg8 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x64 .f32) (main_arg6 : FVec F S64x64 .f32) (main_arg7 : FVec F S64 .f32) (main_arg8 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 54
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S64x64, .f32⟩
  | .hbm, ⟨34, _⟩ => ⟨S1x64, .f32⟩
  | .hbm, ⟨35, _⟩ => ⟨S64x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S64x64, .f32⟩
  | .hbm, ⟨51, _⟩ => ⟨S1x64, .f32⟩
  | .hbm, ⟨52, _⟩ => ⟨S64x64, .f32⟩
  | .hbm, ⟨53, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S50000x64.size a
  hwx0_6 : ∀ i : grid0.Coords, EltTy.bits .f32 = 32 ∨ (Rect.block (s := S50000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S50000x64.size a
  hwx1_6 : ∀ i : grid1.Coords, EltTy.bits .f32 = 32 ∨ (Rect.block (s := S50000x64) S10000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v18) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S64x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S64x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .i1⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S50000x64, .f32⟩
  | .hbm, ⟨53, _⟩ => ⟨S1x800000, .i32⟩
  | .hbm, ⟨54, _⟩ => ⟨S800000, .i32⟩
  | .hbm, ⟨55, _⟩ => ⟨S1x800000, .i32⟩
  | .hbm, ⟨56, _⟩ => ⟨S800000, .i32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x64, .f32⟩
  | .hbm, ⟨81, _⟩ => ⟨S50000x64, .f32⟩
  | .hbm, ⟨82, _⟩ => ⟨S64x64, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S64x64, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S50000x1, .f32⟩
  | .hbm, ⟨95, _⟩ => ⟨S_, .f32⟩
  | .hbm, ⟨96, _⟩ => ⟨S50000x1, .f32⟩
  | .hbm, ⟨97, _⟩ => ⟨S50000x1, .f32⟩
  | .hbm, ⟨98, _⟩ => ⟨S50000x64, .f32⟩
  | .hbm, ⟨99, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_v0 : Ref sig .tc := ⟨.hbm, 90, rfl⟩
abbrev main_call1_cst : Ref sig .tc := ⟨.hbm, 91, rfl⟩
abbrev main_call1_v1 : Ref sig .tc := ⟨.hbm, 92, rfl⟩
abbrev main_call1_v2 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its result named.

  The program is four stretches: host operations, the first row-tiled call, host operations, the second
  row-tiled call. Every weakly fair execution terminates, and every buffer the thread holds ends at the
  contents the fold through the four stretches gives it; read at the result buffer this names the result
  (the second call's output array after its write-backs), and read at the nine argument buffers it says
  they are unchanged.
-/
import proofs.«117927_j42855183680027_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Out

end
-- ==== Proof.SageRows.lean ====
/-
  One mean-aggregation graph layer, row by row, on the extended reals.

  A node's new features depend on one row of each row-tiled array: the row `s` of neighbour sums, the
  neighbour count `c`, the node's own features `x`. With the two (already transposed) weight matrices and
  the bias they give
      lin q = (∑ k, (s k / max c 1) · WlT k q) + b q + ∑ k, x k · WrT k q.
  The first layer follows this by the leaky rectifier, the second by division by the row's Euclidean norm
  clamped below. `layerLin` states the linear part for an array of `a` rows whose count is stored as an
  `[a, 1]` column and whose bias as a `[1, 64]` row; because row `p` of the result reads only row `p` of the
  three row-tiled arrays, a block of consecutive rows of the result is the same function of the matching
  blocks (`layer1_rows`, `layer2_rows`).
-/
import Idealize.ShloMosaic.PureOps.Ideal
import Idealize.ShloMosaic.Lib.ValueIdx

noncomputable section

namespace Cert.SageRows

open Idealize.ShloMosaic Idealize.ShloMosaic.ValueIdx

/-- The linear part for one node. -/
def rowLin (s : Fin 64 → EReal) (c : EReal) (x : Fin 64 → EReal) (WlT : Fin 64 → Fin 64 → EReal)
    (b : Fin 64 → EReal) (WrT : Fin 64 → Fin 64 → EReal) (q : Fin 64) : EReal :=
  (∑ k : Fin 64, Ideal.div (s k) (max c (Ideal.ofBits .f32 0x3F800000#32)) * WlT k q) + b q + ∑ k : Fin 64, x k * WrT k q

/-- The leaky rectifier: `h` where `h ≥ 0`, the slope times `h` elsewhere. -/
def leaky (h : EReal) : EReal :=
  Scalar.select (Ideal.cmp .oge h (Ideal.ofBits .f32 0x00000000#32)) h (Ideal.ofBits .f32 0x3C23D70A#32 * h)

/-- A row divided by its Euclidean norm, the norm clamped below by the small constant. -/
def rowUnit (h : Fin 64 → EReal) (q : Fin 64) : EReal :=
  Ideal.div (h q) (max (Ideal.sqrt (∑ j : Fin 64, h j * h j)) (Ideal.ofBits .f32 0x2B8CBCCC#32))

variable {a : ℕ}

/-- The linear part on an array of `a` rows. -/
def layerLin (S : FVec Ideal ⟨2, ![a, 64]⟩ .f32) (C : FVec Ideal ⟨2, ![a, 1]⟩ .f32) (X : FVec Ideal ⟨2, ![a, 64]⟩ .f32)
    (WlT : FVec Ideal ⟨2, ![64, 64]⟩ .f32) (b : FVec Ideal ⟨2, ![1, 64]⟩ .f32) (WrT : FVec Ideal ⟨2, ![64, 64]⟩ .f32) :
    FVec Ideal ⟨2, ![a, 64]⟩ .f32 := fun i =>
  rowLin (fun k => S (ix2 (i 0) k)) (C (ix2 (i 0) (0 : Fin 1))) (fun k => X (ix2 (i 0) k)) (fun k q => WlT (ix2 k q))
    (fun q => b (ix2 (0 : Fin 1) q)) (fun k q => WrT (ix2 k q)) (i 1)

/-- The first layer: the linear part, then the leaky rectifier. -/
def layer1 (S : FVec Ideal ⟨2, ![a, 64]⟩ .f32) (C : FVec Ideal ⟨2, ![a, 1]⟩ .f32) (X : FVec Ideal ⟨2, ![a, 64]⟩ .f32)
    (WlT : FVec Ideal ⟨2, ![64, 64]⟩ .f32) (b : FVec Ideal ⟨2, ![1, 64]⟩ .f32) (WrT : FVec Ideal ⟨2, ![64, 64]⟩ .f32) :
    FVec Ideal ⟨2, ![a, 64]⟩ .f32 := fun i => leaky (layerLin S C X WlT b WrT i)

/-- The second layer: the linear part, then each row over its clamped norm. -/
def layer2 (S : FVec Ideal ⟨2, ![a, 64]⟩ .f32) (C : FVec Ideal ⟨2, ![a, 1]⟩ .f32) (X : FVec Ideal ⟨2, ![a, 64]⟩ .f32)
    (WlT : FVec Ideal ⟨2, ![64, 64]⟩ .f32) (b : FVec Ideal ⟨2, ![1, 64]⟩ .f32) (WrT : FVec Ideal ⟨2, ![64, 64]⟩ .f32) :
    FVec Ideal ⟨2, ![a, 64]⟩ .f32 := fun i =>
  rowUnit (fun j => layerLin S C X WlT b WrT (ix2 (i 0) j)) (i 1)

section Rows

variable {n : ℕ} (row : Fin n → Fin a)
  (S : FVec Ideal ⟨2, ![a, 64]⟩ .f32) (C : FVec Ideal ⟨2, ![a, 1]⟩ .f32) (X : FVec Ideal ⟨2, ![a, 64]⟩ .f32)
  (s : FVec Ideal ⟨2, ![n, 64]⟩ .f32) (c : FVec Ideal ⟨2, ![n, 1]⟩ .f32) (x : FVec Ideal ⟨2, ![n, 64]⟩ .f32)
  (WlT : FVec Ideal ⟨2, ![64, 64]⟩ .f32) (b : FVec Ideal ⟨2, ![1, 64]⟩ .f32) (WrT : FVec Ideal ⟨2, ![64, 64]⟩ .f32)

/-- Rows of the linear part: where the small arrays hold rows `row p` of the large ones, the small result's
    row `p` is the large result's row `row p`. -/
theorem layerLin_rows (hs : ∀ p k, s (ix2 p k) = S (ix2 (row p) k)) (hc : ∀ p, c (ix2 p (0 : Fin 1)) = C (ix2 (row p) (0 : Fin 1)))
    (hx : ∀ p k, x (ix2 p k) = X (ix2 (row p) k)) (p : Fin n) (q : Fin 64) :
    layerLin s c x WlT b WrT (ix2 p q) = layerLin S C X WlT b WrT (ix2 (row p) q) := by
  show rowLin (fun k => s (ix2 p k)) (c (ix2 p (0 : Fin 1))) (fun k => x (ix2 p k)) _ _ _ q
    = rowLin (fun k => S (ix2 (row p) k)) (C (ix2 (row p) (0 : Fin 1))) (fun k => X (ix2 (row p) k)) _ _ _ q
  rw [hc p, funext (hs p), funext (hx p)]

theorem layer1_rows (hs : ∀ p k, s (ix2 p k) = S (ix2 (row p) k)) (hc : ∀ p, c (ix2 p (0 : Fin 1)) = C (ix2 (row p) (0 : Fin 1)))
    (hx : ∀ p k, x (ix2 p k) = X (ix2 (row p) k)) (p : Fin n) (q : Fin 64) :
    layer1 s c x WlT b WrT (ix2 p q) = layer1 S C X WlT b WrT (ix2 (row p) q) :=
  congrArg leaky (layerLin_rows row S C X s c x WlT b WrT hs hc hx p q)

theorem layer2_rows (hs : ∀ p k, s (ix2 p k) = S (ix2 (row p) k)) (hc : ∀ p, c (ix2 p (0 : Fin 1)) = C (ix2 (row p) (0 : Fin 1)))
    (hx : ∀ p k, x (ix2 p k) = X (ix2 (row p) k)) (p : Fin n) (q : Fin 64) :
    layer2 s c x WlT b WrT (ix2 p q) = layer2 S C X WlT b WrT (ix2 (row p) q) := by
  show rowUnit (fun j => layerLin s c x WlT b WrT (ix2 p j)) q = rowUnit (fun j => layerLin S C X WlT b WrT (ix2 (row p) j)) q
  rw [funext (fun j => layerLin_rows row S C X s c x WlT b WrT hs hc hx p j)]

end Rows

end Cert.SageRows

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.BodyRows.lean ====
/-
  The two kernel bodies, read row by row.

  Each body computes, on a block of rows, the layer's linear part by two matrix products into zero
  accumulators (the operands narrowed to the half-width format first, which changes no extended real),
  adds the bias row broadcast down the block, and then applies the layer's pointwise tail: the leaky
  rectifier in the first body; in the second, the row's sum of squares, its square root clamped below,
  broadcast along the row, and the quotient. Read at `(p, q)` these are `layer1` and `layer2` of the
  body's six loaded blocks.
-/
import proofs.«117927_j42855183680027_1_alg».proof.Proof.Gen.KernelIdeal.Skeleton
import proofs.«117927_j42855183680027_1_alg».proof.Proof.SageRows
import proofs.«117927_j42855183680027_1_alg».proof.Proof.LibRowColDot
import proofs.«117927_j42855183680027_1_alg».proof.Proof.LibColumnBroadcast
import proofs.«117927_j42855183680027_1_alg».proof.Proof.LibKeepdims
import Idealize.ShloMosaic.Lib.ValueLayout
import Idealize.ShloMosaic.Lib.Pipeline.Value
import Idealize.ShloMosaic.PureOps.Ideal.Laws

noncomputable section

namespace Cert.SageRows

open Idealize.ShloMosaic Idealize.ShloMosaic.ValueIdx
open Cert.RowColDot Cert.WeightUpdate.Layout Cert.MemAttn.Layout

variable {n : ℕ}

/-- The linear part as a body's vector operations, at `(p, q)`: both products are sums over the 64 columns,
    the count column and the bias row are read where their broadcasts put them. -/
theorem linVec_apply (d : DotDims ⟨2, ![n, 64]⟩ ⟨2, ![64, 64]⟩ ⟨2, ![n, 64]⟩)
    (hr : d.contr.rank = 1) (hs : d.contr.size ⟨0, by omega⟩ = 64)
    (hcl : d.lhsContracting = [1]) (hcr : d.rhsContracting = [0])
    (hl0 : ∀ j q, (d.lhsIdx j q 0).val = (j 0).val) (hr1 : ∀ j q, (d.rhsIdx j q 1).val = (j 1).val)
    (hb1 : (⟨2, ![n, 1]⟩ : Shape).Broadcasts ⟨2, ![n, 64]⟩) (hb2 : (⟨2, ![1, 64]⟩ : Shape).Broadcasts ⟨2, ![n, 64]⟩)
    (ht : FTy.bits .bf16 < FTy.bits .f32)
    (v0 : FVec Ideal ⟨2, ![n, 64]⟩ .f32) (v2 : FVec Ideal ⟨2, ![n, 1]⟩ .f32) (v9 : FVec Ideal ⟨2, ![n, 64]⟩ .f32)
    (v11 v14 : FVec Ideal ⟨2, ![64, 64]⟩ .f32) (v18 : FVec Ideal ⟨2, ![1, 64]⟩ .f32) (p : Fin n) (q : Fin 64) :
    addf (addf (matmul d none (truncf .bf16 (divf v0 (broadcastTo ⟨2, ![n, 64]⟩
        (maximumf v2 (broadcast ⟨2, ![n, 1]⟩ (Scalar.ofBits (F := Ideal) .f32 0x3F800000#32))) hb1)) ht) (truncf .bf16 v11 ht)
        (constant ⟨2, ![n, 64]⟩ .f32 0x00000000#32)) (broadcastTo ⟨2, ![n, 64]⟩ v18 hb2))
      (matmul d none (truncf .bf16 v9 ht) (truncf .bf16 v14 ht) (constant ⟨2, ![n, 64]⟩ .f32 0x00000000#32)) (ix2 p q)
    = layerLin v0 v2 v9 v11 v18 v14 (ix2 p q) := by
  show matmul d none _ _ _ (ix2 p q) + broadcastTo _ v18 hb2 (ix2 p q) + matmul d none _ _ _ (ix2 p q) = _
  rw [matmul_rowcol d hr hs hcl hcr hl0 hr1, matmul_rowcol d hr hs hcl hcr hl0 hr1, broadcastTo_1b_ab_apply]
  show (∑ k : Fin 64, Ideal.div (v0 (ix2 p k)) (broadcastTo _ (maximumf v2 (broadcast _ _)) hb1 (ix2 p k)) * v11 (ix2 k q))
    + v18 (ix2 (0 : Fin 1) q) + ∑ k : Fin 64, v9 (ix2 p k) * v14 (ix2 k q) = _
  simp only [broadcastTo_a1_ab_apply]
  rfl

/-- A block over its rows' clamped Euclidean norms, as a body's vector operations, at `(p, q)`. -/
theorem unitVec_apply (hb1 : (⟨2, ![n, 1]⟩ : Shape).Broadcasts ⟨2, ![n, 64]⟩)
    (hred : (⟨2, ![n, 64]⟩ : Shape).Reduces [1] (⟨1, ![n]⟩ : Shape)) (hφ : FKind.Formats .f32)
    (hacc : (0x00000000#32 : BitVec FTy.f32.bits) = FKind.add.neutral .f32 hφ)
    (hsc : (⟨1, ![n]⟩ : Shape).ShapeCasts ⟨2, ![n, 1]⟩)
    (H : FVec Ideal ⟨2, ![n, 64]⟩ .f32) (p : Fin n) (q : Fin 64) :
    divf H (broadcastTo ⟨2, ![n, 64]⟩ (maximumf (sqrt (shapeCast ⟨2, ![n, 1]⟩
        (multiReduction .add [1] ⟨1, ![n]⟩ (mulf H H) 0x00000000#32 hred hφ hacc) hsc))
        (broadcast ⟨2, ![n, 1]⟩ (Scalar.ofBits (F := Ideal) .f32 0x2B8CBCCC#32))) hb1) (ix2 p q)
    = rowUnit (fun j => H (ix2 p j)) q := by
  show Ideal.div (H (ix2 p q)) (broadcastTo _ _ hb1 (ix2 p q)) = _
  rw [broadcastTo_a1_ab_apply]
  show Ideal.div (H (ix2 p q)) (max (Ideal.sqrt (shapeCast _ _ hsc (ix2 p (0 : Fin 1)))) _) = _
  rw [shapeCast_a_a1_apply, multiReduction_add_row]
  rfl

end Cert.SageRows

namespace Cert.KernelIdeal.Rows

open Cert.KernelIdeal Cert.KernelIdeal.Gen Cert.SageRows
open Idealize.ShloMosaic Idealize.ShloMosaic.ValueIdx

/-- The kept coordinate of the left operand's index is the output's row. -/
theorem dot_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The kept coordinate of the right operand's index is the output's column. -/
theorem dot_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The first body's stored value is the first layer of its six loaded blocks. -/
theorem body1_eq (v0 : Vec Ideal S10000x64 .f32) (v2 : Vec Ideal S10000x1 .f32) (v9 : Vec Ideal S10000x64 .f32)
    (v11 v14 : Vec Ideal S64x64 .f32) (v18 : Vec Ideal S1x64 .f32) :
    k0_pay1 (F := Ideal) v0 v2 v9 v11 v14 v18 = layer1 v0 v2 v9 v11 v18 v14 := by
  funext j
  obtain ⟨p, q, rfl⟩ : ∃ (p : Fin 10000) (q : Fin 64), j = ix2 p q := ⟨j 0, j 1, eq_ix2 j⟩
  unfold k0_pay1
  simp only [shapeCast_self]
  exact congrArg leaky (linVec_apply dot_S10000x64_S64x64_S10000x64_1_0_0_1_n_n rfl rfl rfl rfl dot_lhs0 dot_rhs1
    _ _ _ v0 v2 v9 v11 v14 v18 p q)

/-- The second body's stored value is the second layer of its six loaded blocks. -/
theorem body2_eq (v0 : Vec Ideal S10000x64 .f32) (v2 : Vec Ideal S10000x1 .f32) (v9 : Vec Ideal S10000x64 .f32)
    (v12 v15 : Vec Ideal S64x64 .f32) (v19 : Vec Ideal S1x64 .f32) :
    k1_pay1 (F := Ideal) v0 v2 v9 v12 v15 v19 = layer2 v0 v2 v9 v12 v19 v15 := by
  funext j
  obtain ⟨p, q, rfl⟩ : ∃ (p : Fin 10000) (q : Fin 64), j = ix2 p q := ⟨j 0, j 1, eq_ix2 j⟩
  unfold k1_pay1
  simp only [shapeCast_self]
  refine (unitVec_apply _ _ _ _ _ _ p q).trans ?_
  exact congrArg (fun h => rowUnit h q) (funext fun j =>
    linVec_apply dot_S10000x64_S64x64_S10000x64_1_0_0_1_n_n rfl rfl rfl rfl dot_lhs0 dot_rhs1
      _ _ _ v0 v2 v9 v12 v15 v19 p j)

end Cert.KernelIdeal.Rows

end
-- ==== Proof.Call0.lean ====
/-
  The first row-tiled call, from its blocks to its output array.

  The grid has five points; point `t` is handed rows `10000·t … 10000·t + 9999` of the three row-tiled
  arrays (sums, counts, features) and the whole of the two weight matrices and the bias row, and writes
  back rows `10000·t …` of the output. Since a row of the layer reads only that row of the row-tiled
  arrays, what point `t` writes back is block `t` of the layer of the whole arrays; the five blocks
  tile the 50000 rows, so the output array ends as the layer of the arrays the call was entered with.
-/
import proofs.«117927_j42855183680027_1_alg».proof.Proof.Gen.KernelIdeal.Frame
import proofs.«117927_j42855183680027_1_alg».proof.Proof.BodyRows

set_option maxRecDepth 16384

noncomputable section

namespace Cert.KernelIdeal.Call0

open Cert.KernelIdeal Cert.KernelIdeal.Gen Cert.KernelIdeal.Rows Cert.SageRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the grid: the row-tiled windows (and the output) sit at block row `t`,
    block column 0; the weights and the bias at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the layer of the arrays the call was entered with. -/
theorem flushed_eq (c : Dev nD) (t : Fin cfg0.N) :
    (dat0 V c).flushed 6 t = ((cfg0.win 6).blk t).view.read (Elt Ideal)
      (layer1 (a := 50000) (V c main_v18) (V c main_v8) (V c main_arg0) (V c main_v19) (V c main_v20) (V c main_v21)) := by
  show (cfg0.win 6).cut (grid0.coords t) ((dat0 V c).after 6 t) = _
  rw [after0_6]
  unfold out0_6
  rw [View.canon_unit_zero offsets_zero]
  simp only [View.ld_unit_zero (S := S10000x64) offsets_zero, View.ld_unit_zero (S := S10000x1) offsets_zero,
    View.ld_unit_zero (S := S64x64) offsets_zero, View.ld_unit_zero (S := S1x64) offsets_zero]
  rw [body1_eq]
  obtain ⟨e00, e01, e10, e11, e20, e21, e30, e31, e40, e41, e50, e51, e60, e61⟩ := index_maps t
  have ht : t.val < 5 := lt_of_lt_of_eq t.isLt N_0
  have hWl : iblk0 V c 3 t = V c main_v19 := by
    funext z
    show V c main_v19 (((cfg0.win 3).blk t).view.emb z) = V c main_v19 z
    refine congrArg _ (funext fun ax => Fin.ext ?_)
    match ax with
    | ⟨0, _⟩ => show win0_3.index t (0 : Fin 2) * 64 + 1 * (z 0).val = (z 0).val; omega
    | ⟨1, _⟩ => show win0_3.index t (1 : Fin 2) * 64 + 1 * (z 1).val = (z 1).val; omega
  have hB : iblk0 V c 4 t = V c main_v20 := by
    funext z
    show V c main_v20 (((cfg0.win 4).blk t).view.emb z) = V c main_v20 z
    refine congrArg _ (funext fun ax => Fin.ext ?_)
    match ax with
    | ⟨0, _⟩ => show win0_4.index t (0 : Fin 2) * 1 + 1 * (z 0).val = (z 0).val; omega
    | ⟨1, _⟩ => show win0_4.index t (1 : Fin 2) * 64 + 1 * (z 1).val = (z 1).val; omega
  have hWr : iblk0 V c 5 t = V c main_v21 := by
    funext z
    show V c main_v21 (((cfg0.win 5).blk t).view.emb z) = V c main_v21 z
    refine congrArg _ (funext fun ax => Fin.ext ?_)
    match ax with
    | ⟨0, _⟩ => show win0_5.index t (0 : Fin 2) * 64 + 1 * (z 0).val = (z 0).val; omega
    | ⟨1, _⟩ => show win0_5.index t (1 : Fin 2) * 64 + 1 * (z 1).val = (z 1).val; omega
  rw [hWl, hB, hWr]
  funext j
  have hj0 : (j 0).val < 10000 := (j 0).isLt
  have hs : ∀ (p : Fin 10000) (k : Fin 64), iblk0 V c 0 t (ix2 p k)
      = V c main_v18 (ix2 (⟨t.val * 10000 + p.val, by omega⟩ : Fin 50000) k) := fun p k => by
    show V c main_v18 (((cfg0.win 0).blk t).view.emb (ix2 p k)) = _
    refine congrArg _ (funext fun ax => Fin.ext ?_)
    match ax with
    | ⟨0, _⟩ => show win0_0.index t (0 : Fin 2) * 10000 + 1 * p.val = t.val * 10000 + p.val; omega
    | ⟨1, _⟩ => show win0_0.index t (1 : Fin 2) * 64 + 1 * k.val = k.val; omega
  have hc : ∀ (p : Fin 10000), iblk0 V c 1 t (ix2 p (0 : Fin 1))
      = V c main_v8 (ix2 (⟨t.val * 10000 + p.val, by omega⟩ : Fin 50000) (0 : Fin 1)) := fun p => by
    show V c main_v8 (((cfg0.win 1).blk t).view.emb (ix2 p (0 : Fin 1))) = _
    refine congrArg _ (funext fun ax => Fin.ext ?_)
    match ax with
    | ⟨0, _⟩ => show win0_1.index t (0 : Fin 2) * 10000 + 1 * p.val = t.val * 10000 + p.val; omega
    | ⟨1, _⟩ => show win0_1.index t (1 : Fin 2) * 1 + 1 * 0 = 0; omega
  have hx : ∀ (p : Fin 10000) (k : Fin 64), iblk0 V c 2 t (ix2 p k)
      = V c main_arg0 (ix2 (⟨t.val * 10000 + p.val, by omega⟩ : Fin 50000) k) := fun p k => by
    show V c main_arg0 (((cfg0.win 2).blk t).view.emb (ix2 p k)) = _
    refine congrArg _ (funext fun ax => Fin.ext ?_)
    match ax with
    | ⟨0, _⟩ => show win0_2.index t (0 : Fin 2) * 10000 + 1 * p.val = t.val * 10000 + p.val; omega
    | ⟨1, _⟩ => show win0_2.index t (1 : Fin 2) * 64 + 1 * k.val = k.val; omega
  refine (congrArg _ (eq_ix2 j)).trans ((layer1_rows (a := 50000) (n := 10000)
    (fun p => (⟨t.val * 10000 + p.val, by have := p.isLt; omega⟩ : Fin 50000))
    (V c main_v18) (V c main_v8) (V c main_arg0) (iblk0 V c 0 t) (iblk0 V c 1 t) (iblk0 V c 2 t)
    (V c main_v19) (V c main_v20) (V c main_v21) hs hc hx (j 0) (j 1)).trans ?_)
  refine congrArg _ (funext fun ax => Fin.ext ?_)
  match ax with
  | ⟨0, _⟩ => show t.val * 10000 + (j 0).val = win0_6.index t (0 : Fin 2) * 10000 + 1 * (j 0).val; omega
  | ⟨1, _⟩ => show (j 1).val = win0_6.index t (1 : Fin 2) * 64 + 1 * (j 1).val; omega

/-- An index of the output array is in point `t`'s block iff each coordinate is in the block's range. -/
theorem mem_blk (t : Fin cfg0.N) (i : S50000x64.Idx) :
    i ∈ ((cfg0.win 6).blk t).view.set ↔ ∀ ax : Fin 2, win0_6.index t ax * S10000x64.size ax ≤ (i ax).val
      ∧ (i ax).val < win0_6.index t ax * S10000x64.size ax + S10000x64.size ax := by
  show i ∈ ((View.whole main_v22).slice (win0_6.rect t)).set ↔ _
  rw [View.set_slice_whole, Rect.mem_set_unit]
  exact Iff.rfl

/-- Row `r` is in the block of point `r / 10000`. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 5 := N_0
  obtain ⟨t, htv⟩ : ∃ t : Fin cfg0.N, t.val = (i 0).val / 10000 := ⟨⟨(i 0).val / 10000, by rw [hN]; omega⟩, rfl⟩
  obtain ⟨e00, e01, e10, e11, e20, e21, e30, e31, e40, e41, e50, e51, e60, e61⟩ := index_maps t
  refine ⟨t, flush0_6 t, ?_⟩
  rw [mem_blk]
  intro ax
  match ax with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 64 ≤ (i 1).val ∧ (i 1).val < win0_6.index t (1 : Fin 2) * 64 + 64
    omega

/-- The output array after the call: the layer of the arrays the call was entered with. -/
theorem final (c : Dev nD) : (dat0 V c).arrAt 6 cfg0.N
    = layer1 (a := 50000) (V c main_v18) (V c main_v8) (V c main_arg0) (V c main_v19) (V c main_v20) (V c main_v21) :=
  (dat0 V c).arrAt_eq_of_cover 6 _ (fun t _ => flushed_eq V c t) cover

end Cert.KernelIdeal.Call0

end
-- ==== Proof.Call1.lean ====
/-
  The second row-tiled call, from its blocks to its output array.

  The grid has five points; point `t` is handed rows `10000·t … 10000·t + 9999` of the three row-tiled
  arrays (sums, counts, features) and the whole of the two weight matrices and the bias row, and writes
  back rows `10000·t …` of the output. Since a row of the layer reads only that row of the row-tiled
  arrays, what point `t` writes back is block `t` of the layer of the whole arrays; the five blocks
  tile the 50000 rows, so the output array ends as the layer of the arrays the call was entered with.
-/
import proofs.«117927_j42855183680027_1_alg».proof.Proof.Gen.KernelIdeal.Frame
import proofs.«117927_j42855183680027_1_alg».proof.Proof.BodyRows

set_option maxRecDepth 16384

noncomputable section

namespace Cert.KernelIdeal.Call1

open Cert.KernelIdeal Cert.KernelIdeal.Gen Cert.KernelIdeal.Rows Cert.SageRows
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps, decided over the grid: the row-tiled windows (and the output) sit at block row `t`,
    block column 0; the weights and the bias at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the layer of the arrays the call was entered with. -/
theorem flushed_eq (c : Dev nD) (t : Fin cfg1.N) :
    (dat1 V c).flushed 6 t = ((cfg1.win 6).blk t).view.read (Elt Ideal)
      (layer2 (a := 50000) (V c main_v32) (V c main_v8) (V c main_v22) (V c main_v33) (V c main_v34) (V c main_v35)) := by
  show (cfg1.win 6).cut (grid1.coords t) ((dat1 V c).after 6 t) = _
  rw [after1_6]
  unfold out1_6
  rw [View.canon_unit_zero offsets_zero]
  simp only [View.ld_unit_zero (S := S10000x64) offsets_zero, View.ld_unit_zero (S := S10000x1) offsets_zero,
    View.ld_unit_zero (S := S64x64) offsets_zero, View.ld_unit_zero (S := S1x64) offsets_zero]
  rw [body2_eq]
  obtain ⟨e00, e01, e10, e11, e20, e21, e30, e31, e40, e41, e50, e51, e60, e61⟩ := index_maps t
  have ht : t.val < 5 := lt_of_lt_of_eq t.isLt N_1
  have hWl : iblk1 V c 3 t = V c main_v33 := by
    funext z
    show V c main_v33 (((cfg1.win 3).blk t).view.emb z) = V c main_v33 z
    refine congrArg _ (funext fun ax => Fin.ext ?_)
    match ax with
    | ⟨0, _⟩ => show win1_3.index t (0 : Fin 2) * 64 + 1 * (z 0).val = (z 0).val; omega
    | ⟨1, _⟩ => show win1_3.index t (1 : Fin 2) * 64 + 1 * (z 1).val = (z 1).val; omega
  have hB : iblk1 V c 4 t = V c main_v34 := by
    funext z
    show V c main_v34 (((cfg1.win 4).blk t).view.emb z) = V c main_v34 z
    refine congrArg _ (funext fun ax => Fin.ext ?_)
    match ax with
    | ⟨0, _⟩ => show win1_4.index t (0 : Fin 2) * 1 + 1 * (z 0).val = (z 0).val; omega
    | ⟨1, _⟩ => show win1_4.index t (1 : Fin 2) * 64 + 1 * (z 1).val = (z 1).val; omega
  have hWr : iblk1 V c 5 t = V c main_v35 := by
    funext z
    show V c main_v35 (((cfg1.win 5).blk t).view.emb z) = V c main_v35 z
    refine congrArg _ (funext fun ax => Fin.ext ?_)
    match ax with
    | ⟨0, _⟩ => show win1_5.index t (0 : Fin 2) * 64 + 1 * (z 0).val = (z 0).val; omega
    | ⟨1, _⟩ => show win1_5.index t (1 : Fin 2) * 64 + 1 * (z 1).val = (z 1).val; omega
  rw [hWl, hB, hWr]
  funext j
  have hj0 : (j 0).val < 10000 := (j 0).isLt
  have hs : ∀ (p : Fin 10000) (k : Fin 64), iblk1 V c 0 t (ix2 p k)
      = V c main_v32 (ix2 (⟨t.val * 10000 + p.val, by omega⟩ : Fin 50000) k) := fun p k => by
    show V c main_v32 (((cfg1.win 0).blk t).view.emb (ix2 p k)) = _
    refine congrArg _ (funext fun ax => Fin.ext ?_)
    match ax with
    | ⟨0, _⟩ => show win1_0.index t (0 : Fin 2) * 10000 + 1 * p.val = t.val * 10000 + p.val; omega
    | ⟨1, _⟩ => show win1_0.index t (1 : Fin 2) * 64 + 1 * k.val = k.val; omega
  have hc : ∀ (p : Fin 10000), iblk1 V c 1 t (ix2 p (0 : Fin 1))
      = V c main_v8 (ix2 (⟨t.val * 10000 + p.val, by omega⟩ : Fin 50000) (0 : Fin 1)) := fun p => by
    show V c main_v8 (((cfg1.win 1).blk t).view.emb (ix2 p (0 : Fin 1))) = _
    refine congrArg _ (funext fun ax => Fin.ext ?_)
    match ax with
    | ⟨0, _⟩ => show win1_1.index t (0 : Fin 2) * 10000 + 1 * p.val = t.val * 10000 + p.val; omega
    | ⟨1, _⟩ => show win1_1.index t (1 : Fin 2) * 1 + 1 * 0 = 0; omega
  have hx : ∀ (p : Fin 10000) (k : Fin 64), iblk1 V c 2 t (ix2 p k)
      = V c main_v22 (ix2 (⟨t.val * 10000 + p.val, by omega⟩ : Fin 50000) k) := fun p k => by
    show V c main_v22 (((cfg1.win 2).blk t).view.emb (ix2 p k)) = _
    refine congrArg _ (funext fun ax => Fin.ext ?_)
    match ax with
    | ⟨0, _⟩ => show win1_2.index t (0 : Fin 2) * 10000 + 1 * p.val = t.val * 10000 + p.val; omega
    | ⟨1, _⟩ => show win1_2.index t (1 : Fin 2) * 64 + 1 * k.val = k.val; omega
  refine (congrArg _ (eq_ix2 j)).trans ((layer2_rows (a := 50000) (n := 10000)
    (fun p => (⟨t.val * 10000 + p.val, by have := p.isLt; omega⟩ : Fin 50000))
    (V c main_v32) (V c main_v8) (V c main_v22) (iblk1 V c 0 t) (iblk1 V c 1 t) (iblk1 V c 2 t)
    (V c main_v33) (V c main_v34) (V c main_v35) hs hc hx (j 0) (j 1)).trans ?_)
  refine congrArg _ (funext fun ax => Fin.ext ?_)
  match ax with
  | ⟨0, _⟩ => show t.val * 10000 + (j 0).val = win1_6.index t (0 : Fin 2) * 10000 + 1 * (j 0).val; omega
  | ⟨1, _⟩ => show (j 1).val = win1_6.index t (1 : Fin 2) * 64 + 1 * (j 1).val; omega

/-- An index of the output array is in point `t`'s block iff each coordinate is in the block's range. -/
theorem mem_blk (t : Fin cfg1.N) (i : S50000x64.Idx) :
    i ∈ ((cfg1.win 6).blk t).view.set ↔ ∀ ax : Fin 2, win1_6.index t ax * S10000x64.size ax ≤ (i ax).val
      ∧ (i ax).val < win1_6.index t ax * S10000x64.size ax + S10000x64.size ax := by
  show i ∈ ((View.whole main_v36).slice (win1_6.rect t)).set ↔ _
  rw [View.set_slice_whole, Rect.mem_set_unit]
  exact Iff.rfl

/-- Row `r` is in the block of point `r / 10000`. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 5 := N_1
  obtain ⟨t, htv⟩ : ∃ t : Fin cfg1.N, t.val = (i 0).val / 10000 := ⟨⟨(i 0).val / 10000, by rw [hN]; omega⟩, rfl⟩
  obtain ⟨e00, e01, e10, e11, e20, e21, e30, e31, e40, e41, e50, e51, e60, e61⟩ := index_maps t
  refine ⟨t, flush1_6 t, ?_⟩
  rw [mem_blk]
  intro ax
  match ax with
  | ⟨0, _⟩ =>
    show win1_6.index t (0 : Fin 2) * 10000 ≤ (i 0).val ∧ (i 0).val < win1_6.index t (0 : Fin 2) * 10000 + 10000
    omega
  | ⟨1, _⟩ =>
    show win1_6.index t (1 : Fin 2) * 64 ≤ (i 1).val ∧ (i 1).val < win1_6.index t (1 : Fin 2) * 64 + 64
    omega

/-- The output array after the call: the layer of the arrays the call was entered with. -/
theorem final (c : Dev nD) : (dat1 V c).arrAt 6 cfg1.N
    = layer2 (a := 50000) (V c main_v32) (V c main_v8) (V c main_v22) (V c main_v33) (V c main_v34) (V c main_v35) :=
  (dat1 V c).arrAt_eq_of_cover 6 _ (fun t _ => flushed_eq V c t) cover

end Cert.KernelIdeal.Call1

end
-- ==== Proof.HostReads.lean ====
/-
  The host operations around the two calls, read as whole-array terms of the arguments.

  Before the first call the host gathers the source rows of the features and scatter-adds them at the
  destination rows (the neighbour sums), scatter-adds ones at the destination rows (the neighbour counts,
  then viewed as a column), transposes the two weight matrices and views the bias as a row. Between the
  calls it does the same with the first call's output in the features' place. These are operation for
  operation the reference program's own host operations, so each array a call is entered with is named
  here by the reference's stage function of the same arguments; an array no operation of a stretch writes
  is what it was before the stretch, and an input array of a call is what it was before the call.
-/
import proofs.«117927_j42855183680027_1_alg».proof.Proof.Gen.KernelIdeal.Frame
import proofs.«117927_j42855183680027_1_alg».proof.Proof.Gen.ReferenceIdeal.Read
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v13 val_main_v17 val_main_v23 val_main_v28 val_main_v59 val_main_v64)

variable {F : FTy → Type} [FloatOps F]
variable (m : (ℓ : Loc nD τ sig) → Buf (Elt F) ℓ) (ρ : Dev nD → PrngReg)

/-! ## Entering the first call -/

set_option maxHeartbeats 4000000 in
theorem sums1 (c : Dev nD) : V1 m ρ c main_v18 = val_main_v13 (F := F) (m ((c.tc : Thread nD τ).loc main_arg0)) (m ((c.tc : Thread nD τ).loc main_arg1)) := by
  show StableHlo.after hostOps0 (W0 m ρ c) (Proc.devRef .tc main_v18) = _
  after_results_simp
  rfl

set_option maxHeartbeats 4000000 in
theorem counts1 (c : Dev nD) : V1 m ρ c main_v8
    = shapeCast Cert.KernelIdeal.S50000x1 (val_main_v17 (F := F) (m ((c.tc : Thread nD τ).loc main_arg1))) Facts₀.shapeCasts_S50000_S50000x1 := by
  show StableHlo.after hostOps0 (W0 m ρ c) (Proc.devRef .tc main_v8) = _
  after_results_simp
  rfl

set_option maxHeartbeats 4000000 in
theorem feats1 (c : Dev nD) : V1 m ρ c main_arg0 = (m ((c.tc : Thread nD τ).loc main_arg0)) := by
  show StableHlo.after hostOps0 (W0 m ρ c) (Proc.devRef .tc main_arg0) = _
  after_results_simp

set_option maxHeartbeats 4000000 in
theorem wl1 (c : Dev nD) : V1 m ρ c main_v19 = val_main_v23 (F := F) (m ((c.tc : Thread nD τ).loc main_arg3)) := by
  show StableHlo.after hostOps0 (W0 m ρ c) (Proc.devRef .tc main_v19) = _
  after_results_simp
  rfl

set_option maxHeartbeats 4000000 in
theorem bias1 (c : Dev nD) : V1 m ρ c main_v20
    = shapeCast Cert.KernelIdeal.S1x64 (m ((c.tc : Thread nD τ).loc main_arg4)) Facts₀.shapeCasts_S64_S1x64 := by
  show StableHlo.after hostOps0 (W0 m ρ c) (Proc.devRef .tc main_v20) = _
  after_results_simp
  rfl

set_option maxHeartbeats 4000000 in
theorem wr1 (c : Dev nD) : V1 m ρ c main_v21 = val_main_v28 (F := F) (m ((c.tc : Thread nD τ).loc main_arg5)) := by
  show StableHlo.after hostOps0 (W0 m ρ c) (Proc.devRef .tc main_v21) = _
  after_results_simp
  rfl

/-! ## What the first stretch left, still there after the first call -/

set_option maxHeartbeats 4000000 in
theorem src_kept (c : Dev nD) : W2 m ρ c (Proc.devRef .tc main_v1) = val_main_v1 (F := F) (m ((c.tc : Thread nD τ).loc main_arg1)) :=
  (W2_of_ne m ρ c main_v1 (by decide)).trans (by
    show StableHlo.after hostOps0 (W0 m ρ c) (Proc.devRef .tc main_v1) = _
    after_results_simp
    rfl)

set_option maxHeartbeats 4000000 in
theorem dst_kept (c : Dev nD) : W2 m ρ c (Proc.devRef .tc main_v3) = val_main_v3 (F := F) (m ((c.tc : Thread nD τ).loc main_arg1)) :=
  (W2_of_ne m ρ c main_v3 (by decide)).trans (by
    show StableHlo.after hostOps0 (W0 m ρ c) (Proc.devRef .tc main_v3) = _
    after_results_simp
    rfl)

set_option maxHeartbeats 4000000 in
theorem arg6_kept (c : Dev nD) : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results_simp)

set_option maxHeartbeats 4000000 in
theorem arg7_kept (c : Dev nD) : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results_simp)

set_option maxHeartbeats 4000000 in
theorem arg8_kept (c : Dev nD) : W2 m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    after_results_simp)

/-- The count column is an input of the first call: after it, it is what the call was entered with. -/
theorem counts_kept (c : Dev nD) : W2 m ρ c (Proc.devRef .tc main_v8) = V1 m ρ c main_v8 :=
  (W2_arr m ρ c 1).trans (((dat0 (V1 m ρ) c).arrAt_in 1 rfl _).trans (A_eq0 (V1 m ρ) c 1))

/-! ## Entering the second call -/

set_option maxHeartbeats 4000000 in
theorem sums2 (c : Dev nD) : V3 m ρ c main_v32
    = val_main_v13 (F := F) (W2 m ρ c (Proc.devRef .tc main_v22)) (m ((c.tc : Thread nD τ).loc main_arg1)) := by
  show StableHlo.after hostOps1 (W2 m ρ c) (Proc.devRef .tc main_v32) = _
  after_results_simp
  rw [src_kept, dst_kept]
  rfl

set_option maxHeartbeats 4000000 in
theorem counts2 (c : Dev nD) : V3 m ρ c main_v8 = V1 m ρ c main_v8 := by
  refine Eq.trans ?_ (counts_kept m ρ c)
  show StableHlo.after hostOps1 (W2 m ρ c) (Proc.devRef .tc main_v8) = _
  after_results_simp

set_option maxHeartbeats 4000000 in
theorem feats2 (c : Dev nD) : V3 m ρ c main_v22 = W2 m ρ c (Proc.devRef .tc main_v22) := by
  show StableHlo.after hostOps1 (W2 m ρ c) (Proc.devRef .tc main_v22) = _
  after_results_simp

set_option maxHeartbeats 4000000 in
theorem wl2 (c : Dev nD) : V3 m ρ c main_v33 = val_main_v59 (F := F) (m ((c.tc : Thread nD τ).loc main_arg6)) := by
  show StableHlo.after hostOps1 (W2 m ρ c) (Proc.devRef .tc main_v33) = _
  after_results_simp
  rw [arg6_kept]
  rfl

set_option maxHeartbeats 4000000 in
theorem bias2 (c : Dev nD) : V3 m ρ c main_v34
    = shapeCast Cert.KernelIdeal.S1x64 (m ((c.tc : Thread nD τ).loc main_arg7)) Facts₀.shapeCasts_S64_S1x64 := by
  show StableHlo.after hostOps1 (W2 m ρ c) (Proc.devRef .tc main_v34) = _
  after_results_simp
  rw [arg7_kept]
  rfl

set_option maxHeartbeats 4000000 in
theorem wr2 (c : Dev nD) : V3 m ρ c main_v35 = val_main_v64 (F := F) (m ((c.tc : Thread nD τ).loc main_arg8)) := by
  show StableHlo.after hostOps1 (W2 m ρ c) (Proc.devRef .tc main_v35) = _
  after_results_simp
  rw [arg8_kept]
  rfl

end Cert.KernelIdeal.Host

end
-- ==== Proof.RefLayers.lean ====
/-
  The reference program's stages are the two layers.

  The reference divides the neighbour sums by the counts clamped below by one (the count vector broadcast
  along the rows), multiplies by the transposed weight matrix, adds the bias broadcast down the rows, adds
  the product of the features with the other transposed weight matrix, and applies the layer's tail — the
  leaky rectifier, or each row over its clamped Euclidean norm. Read at `(p, q)` each product is a sum over
  the 64 columns and each broadcast reads one entry, so the stage is `layer1` / `layer2` of the sums, the
  count column, the features, the two transposed matrices and the bias row. The second layer's neighbour
  sums and counts are the first layer's host operations applied again, to the first layer's output.
-/
import proofs.«117927_j42855183680027_1_alg».proof.Proof.Gen.ReferenceIdeal.Read
import proofs.«117927_j42855183680027_1_alg».proof.Proof.SageRows
import proofs.«117927_j42855183680027_1_alg».proof.Proof.LibKeepdims
import Idealize.ShloMosaic.Lib.ValueLayout

set_option maxRecDepth 16384

noncomputable section

namespace Cert.ReferenceIdeal.Layers

open Cert.ReferenceIdeal Cert.ReferenceIdeal.Read Cert.SageRows
open Idealize.ShloMosaic Idealize.ShloMosaic.ValueIdx
open Cert.MemAttn.Layout (shapeCast_a_a1_apply)

/-! ## The stages' index maps at `(p, q)` -/

theorem lidx24 (p : Fin 50000) (q k : Fin 64) : lidx_main_v24 (ix2 p q) k = ix2 p k :=
  funext fun ax => Fin.ext (by match ax with | ⟨0, _⟩ => rfl | ⟨1, _⟩ => rfl)
theorem ridx24 (p : Fin 50000) (q k : Fin 64) : ridx_main_v24 (ix2 p q) k = ix2 k q :=
  funext fun ax => Fin.ext (by match ax with | ⟨0, _⟩ => rfl | ⟨1, _⟩ => rfl)
theorem lidx29 (p : Fin 50000) (q k : Fin 64) : lidx_main_v29 (ix2 p q) k = ix2 p k :=
  funext fun ax => Fin.ext (by match ax with | ⟨0, _⟩ => rfl | ⟨1, _⟩ => rfl)
theorem ridx29 (p : Fin 50000) (q k : Fin 64) : ridx_main_v29 (ix2 p q) k = ix2 k q :=
  funext fun ax => Fin.ext (by match ax with | ⟨0, _⟩ => rfl | ⟨1, _⟩ => rfl)
theorem lidx60 (p : Fin 50000) (q k : Fin 64) : lidx_main_v60 (ix2 p q) k = ix2 p k :=
  funext fun ax => Fin.ext (by match ax with | ⟨0, _⟩ => rfl | ⟨1, _⟩ => rfl)
theorem ridx60 (p : Fin 50000) (q k : Fin 64) : ridx_main_v60 (ix2 p q) k = ix2 k q :=
  funext fun ax => Fin.ext (by match ax with | ⟨0, _⟩ => rfl | ⟨1, _⟩ => rfl)
theorem lidx65 (p : Fin 50000) (q k : Fin 64) : lidx_main_v65 (ix2 p q) k = ix2 p k :=
  funext fun ax => Fin.ext (by match ax with | ⟨0, _⟩ => rfl | ⟨1, _⟩ => rfl)
theorem ridx65 (p : Fin 50000) (q k : Fin 64) : ridx_main_v65 (ix2 p q) k = ix2 k q :=
  funext fun ax => Fin.ext (by match ax with | ⟨0, _⟩ => rfl | ⟨1, _⟩ => rfl)
theorem idxCount1 (p : Fin 50000) (k : Fin 64) : idx_main_v20 (idx_main_v21 (ix2 p k)) = ix1 p :=
  funext fun ax => Fin.ext (by match ax with | ⟨0, _⟩ => rfl)
theorem idxCount2 (p : Fin 50000) (k : Fin 64) : idx_main_v56 (idx_main_v57 (ix2 p k)) = ix1 p :=
  funext fun ax => Fin.ext (by match ax with | ⟨0, _⟩ => rfl)
theorem idxBias1 (p : Fin 50000) (q : Fin 64) : idx_main_v25 (idx_main_v26 (ix2 p q)) = ix1 q :=
  funext fun ax => Fin.ext (by match ax with | ⟨0, _⟩ => rfl)
theorem idxBias2 (p : Fin 50000) (q : Fin 64) : idx_main_v61 (idx_main_v62 (ix2 p q)) = ix1 q :=
  funext fun ax => Fin.ext (by match ax with | ⟨0, _⟩ => rfl)
theorem idxRow (p : Fin 50000) (q j : Fin 64) : idx_main_call1_v1 (idx_main_call1_v2 (idx_main_v70 (ix2 p q))) j = ix2 p j :=
  funext fun ax => Fin.ext (by match ax with | ⟨0, _⟩ => rfl | ⟨1, _⟩ => rfl)

variable (x0 : (⟨S50000x64, .f32⟩ : BufTy).Contents (Elt Ideal)) (x1 : (⟨S2x800000, .i32⟩ : BufTy).Contents (Elt Ideal))
  (x3 : (⟨S64x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))
  (x8 : (⟨S64x64, .f32⟩ : BufTy).Contents (Elt Ideal))
  (hC : S50000.ShapeCasts S50000x1) (hB : S64.ShapeCasts S1x64)

/-- The first layer's mean stage at `(p, k)`: the sums' entry over the row's clamped count. -/
theorem mean1 (p : Fin 50000) (k : Fin 64) : val_main_v22 (F := Ideal) x0 x1 (ix2 p k)
    = Ideal.div (val_main_v13 (F := Ideal) x0 x1 (ix2 p k)) (max (val_main_v17 (F := Ideal) x1 (ix1 p)) (Ideal.ofBits .f32 0x3F800000#32)) := by
  rw [val_main_v22_apply, val_main_v21_apply, val_main_v20_apply, val_main_v19_apply, val_main_v18_apply,
    val_main_cst_3_apply, idxCount1]
  rfl

/-- The first layer's linear stage. -/
theorem lin1 : val_main_v30 (F := Ideal) x0 x1 x3 x4 x5
    = layerLin (a := 50000) (val_main_v13 (F := Ideal) x0 x1) (shapeCast S50000x1 (val_main_v17 (F := Ideal) x1) hC) x0 (val_main_v23 (F := Ideal) x3)
        (shapeCast S1x64 x4 hB) (val_main_v28 (F := Ideal) x5) := by
  funext i
  obtain ⟨p, q, rfl⟩ : ∃ (p : Fin 50000) (q : Fin 64), i = ix2 p q := ⟨i 0, i 1, eq_ix2 i⟩
  rw [val_main_v30_apply, val_main_v27_apply, val_main_v24_apply, val_main_v29_apply, val_main_v26_apply, val_main_v25_apply]
  have hsum1 : (∑ k : Fin 64, val_main_v22 (F := Ideal) x0 x1 (lidx_main_v24 (ix2 p q) k) * val_main_v23 (F := Ideal) x3 (ridx_main_v24 (ix2 p q) k))
      = ∑ k : Fin 64, Ideal.div (val_main_v13 (F := Ideal) x0 x1 (ix2 p k)) (max (val_main_v17 (F := Ideal) x1 (ix1 p)) (Ideal.ofBits .f32 0x3F800000#32)) * val_main_v23 (F := Ideal) x3 (ix2 k q) :=
    Finset.sum_congr rfl fun k _ => by rw [lidx24, ridx24, mean1]
  have hsum2 : (∑ k : Fin 64, x0 (lidx_main_v29 (ix2 p q) k) * val_main_v28 (F := Ideal) x5 (ridx_main_v29 (ix2 p q) k))
      = ∑ k : Fin 64, x0 (ix2 p k) * val_main_v28 (F := Ideal) x5 (ix2 k q) :=
    Finset.sum_congr rfl fun k _ => by rw [lidx29, ridx29]
  rw [hsum1, hsum2, idxBias1]
  show _ = rowLin (fun k => val_main_v13 (F := Ideal) x0 x1 (ix2 p k)) (shapeCast S50000x1 (val_main_v17 (F := Ideal) x1) hC (ix2 p (0 : Fin 1)))
    (fun k => x0 (ix2 p k)) (fun k q => val_main_v23 (F := Ideal) x3 (ix2 k q)) (fun q => shapeCast S1x64 x4 hB (ix2 (0 : Fin 1) q))
    (fun k q => val_main_v28 (F := Ideal) x5 (ix2 k q)) q
  unfold rowLin
  beta_reduce
  rw [shapeCast_a_a1_apply, shapeCast_a_1a_apply]
  rfl

/-- The first layer's output stage. -/
theorem out1 : val_main_v35 (F := Ideal) x0 x1 x3 x4 x5
    = layer1 (a := 50000) (val_main_v13 x0 x1) (shapeCast S50000x1 (val_main_v17 x1) hC) x0 (val_main_v23 x3)
        (shapeCast S1x64 x4 hB) (val_main_v28 x5) := by
  funext i
  rw [val_main_v35_apply, val_main_v32_apply, val_main_v34_apply, val_main_v31_apply, val_main_v33_apply,
    val_main_cst_4_apply, val_main_cst_5_apply, lin1 x0 x1 x3 x4 x5 hC hB]
  rfl

/-- The second layer's neighbour sums are the first layer's gather and scatter applied to the first layer's output. -/
theorem sums2 : val_main_v49 (F := Ideal) x0 x1 x3 x4 x5 = val_main_v13 (val_main_v35 (F := Ideal) x0 x1 x3 x4 x5) x1 := rfl

/-- The neighbour counts are computed twice, by the same operations. -/
theorem counts2 : val_main_v53 (F := Ideal) x1 = val_main_v17 x1 := rfl

/-- The second layer's mean stage at `(p, k)`: the sums' entry over the row's clamped count. -/
theorem mean2 (p : Fin 50000) (k : Fin 64) : val_main_v58 (F := Ideal) x0 x1 x3 x4 x5 (ix2 p k)
    = Ideal.div (val_main_v49 (F := Ideal) x0 x1 x3 x4 x5 (ix2 p k)) (max (val_main_v53 (F := Ideal) x1 (ix1 p)) (Ideal.ofBits .f32 0x3F800000#32)) := by
  rw [val_main_v58_apply, val_main_v57_apply, val_main_v56_apply, val_main_v55_apply, val_main_v54_apply,
    val_main_cst_11_apply, idxCount2]
  rfl

/-- The second layer's linear stage. -/
theorem lin2 : val_main_v66 (F := Ideal) x0 x1 x3 x4 x5 x6 x7 x8
    = layerLin (a := 50000) (val_main_v49 (F := Ideal) x0 x1 x3 x4 x5) (shapeCast S50000x1 (val_main_v53 (F := Ideal) x1) hC) (val_main_v35 (F := Ideal) x0 x1 x3 x4 x5) (val_main_v59 (F := Ideal) x6)
        (shapeCast S1x64 x7 hB) (val_main_v64 (F := Ideal) x8) := by
  funext i
  obtain ⟨p, q, rfl⟩ : ∃ (p : Fin 50000) (q : Fin 64), i = ix2 p q := ⟨i 0, i 1, eq_ix2 i⟩
  rw [val_main_v66_apply, val_main_v63_apply, val_main_v60_apply, val_main_v65_apply, val_main_v62_apply, val_main_v61_apply]
  have hsum1 : (∑ k : Fin 64, val_main_v58 (F := Ideal) x0 x1 x3 x4 x5 (lidx_main_v60 (ix2 p q) k) * val_main_v59 (F := Ideal) x6 (ridx_main_v60 (ix2 p q) k))
      = ∑ k : Fin 64, Ideal.div (val_main_v49 (F := Ideal) x0 x1 x3 x4 x5 (ix2 p k)) (max (val_main_v53 (F := Ideal) x1 (ix1 p)) (Ideal.ofBits .f32 0x3F800000#32)) * val_main_v59 (F := Ideal) x6 (ix2 k q) :=
    Finset.sum_congr rfl fun k _ => by rw [lidx60, ridx60, mean2]
  have hsum2 : (∑ k : Fin 64, (val_main_v35 (F := Ideal) x0 x1 x3 x4 x5) (lidx_main_v65 (ix2 p q) k) * val_main_v64 (F := Ideal) x8 (ridx_main_v65 (ix2 p q) k))
      = ∑ k : Fin 64, (val_main_v35 (F := Ideal) x0 x1 x3 x4 x5) (ix2 p k) * val_main_v64 (F := Ideal) x8 (ix2 k q) :=
    Finset.sum_congr rfl fun k _ => by rw [lidx65, ridx65]
  rw [hsum1, hsum2, idxBias2]
  show _ = rowLin (fun k => val_main_v49 (F := Ideal) x0 x1 x3 x4 x5 (ix2 p k)) (shapeCast S50000x1 (val_main_v53 (F := Ideal) x1) hC (ix2 p (0 : Fin 1)))
    (fun k => (val_main_v35 (F := Ideal) x0 x1 x3 x4 x5) (ix2 p k)) (fun k q => val_main_v59 (F := Ideal) x6 (ix2 k q)) (fun q => shapeCast S1x64 x7 hB (ix2 (0 : Fin 1) q))
    (fun k q => val_main_v64 (F := Ideal) x8 (ix2 k q)) q
  unfold rowLin
  beta_reduce
  rw [shapeCast_a_a1_apply, shapeCast_a_1a_apply]
  rfl

/-- The result: the second layer. -/
theorem out2 : val_main_v71 (F := Ideal) x0 x1 x3 x4 x5 x6 x7 x8
    = layer2 (a := 50000) (val_main_v49 (F := Ideal) x0 x1 x3 x4 x5) (shapeCast S50000x1 (val_main_v53 (F := Ideal) x1) hC) (val_main_v35 (F := Ideal) x0 x1 x3 x4 x5)
        (val_main_v59 (F := Ideal) x6) (shapeCast S1x64 x7 hB) (val_main_v64 (F := Ideal) x8) := by
  funext i
  obtain ⟨p, q, rfl⟩ : ∃ (p : Fin 50000) (q : Fin 64), i = ix2 p q := ⟨i 0, i 1, eq_ix2 i⟩
  have hsq : (∑ k : Fin 64, val_main_call1_v0 (F := Ideal) x0 x1 x3 x4 x5 x6 x7 x8
        (idx_main_call1_v1 (idx_main_call1_v2 (idx_main_v70 (ix2 p q))) k))
      = ∑ j : Fin 64, val_main_v66 (F := Ideal) x0 x1 x3 x4 x5 x6 x7 x8 (ix2 p j) * val_main_v66 (F := Ideal) x0 x1 x3 x4 x5 x6 x7 x8 (ix2 p j) :=
    Finset.sum_congr rfl fun k _ => by rw [idxRow, val_main_call1_v0_apply]; rfl
  have hnorm : val_main_v70 (F := Ideal) x0 x1 x3 x4 x5 x6 x7 x8 (ix2 p q)
      = max (Ideal.sqrt (∑ j : Fin 64, val_main_v66 (F := Ideal) x0 x1 x3 x4 x5 x6 x7 x8 (ix2 p j) * val_main_v66 (F := Ideal) x0 x1 x3 x4 x5 x6 x7 x8 (ix2 p j)))
          (Ideal.ofBits .f32 0x2B8CBCCC#32) := by
    rw [val_main_v70_apply, val_main_v69_apply, val_main_v67_apply, val_main_call1_v2_apply, val_main_call1_v1_apply,
      val_main_v68_apply, val_main_cst_12_apply, val_main_call1_cst_apply, hsq,
      show FloatOps.ofBits (F := Ideal) .f32 0x00000000#32 = (0 : EReal) from Ideal.ofBits_zero_f32, zero_add]
    simp only [Ideal.maximumf_def, Ideal.hostUnary_sqrt_def, Ideal.ofBits_def]
  rw [val_main_v71_apply, hnorm, lin2 x0 x1 x3 x4 x5 x6 x7 x8 hC hB]
  rfl

/-! ## The network -/

/-- The hidden features: the first layer of the neighbour sums, the count column, the features, the two transposed
    weight matrices and the bias row. -/
def hidden : FVec Ideal ⟨2, ![50000, 64]⟩ .f32 :=
  layer1 (a := 50000) (val_main_v13 (F := Ideal) x0 x1) (shapeCast S50000x1 (val_main_v17 (F := Ideal) x1) hC) x0
    (val_main_v23 (F := Ideal) x3) (shapeCast S1x64 x4 hB) (val_main_v28 (F := Ideal) x5)

/-- The network: the second layer, with the hidden features in the features' place and their neighbour sums. -/
def net : FVec Ideal ⟨2, ![50000, 64]⟩ .f32 :=
  layer2 (a := 50000) (val_main_v13 (F := Ideal) (hidden x0 x1 x3 x4 x5 hC hB) x1)
    (shapeCast S50000x1 (val_main_v17 (F := Ideal) x1) hC) (hidden x0 x1 x3 x4 x5 hC hB)
    (val_main_v59 (F := Ideal) x6) (shapeCast S1x64 x7 hB) (val_main_v64 (F := Ideal) x8)

/-- The reference's result stage is the network of its arguments. -/
theorem ref_eq : val_main_v71 (F := Ideal) x0 x1 x3 x4 x5 x6 x7 x8 = net x0 x1 x3 x4 x5 x6 x7 x8 hC hB := by
  rw [out2 x0 x1 x3 x4 x5 x6 x7 x8 hC hB, sums2, counts2, out1 x0 x1 x3 x4 x5 hC hB]
  rfl

end Cert.ReferenceIdeal.Layers

end
-- ==== Proof.KernelValue.lean ====
/-
  The idealized kernel's result as one function of its arguments.

  The result buffer ends as the second call's output array; that is the second layer of the arrays the
  second call was entered with, which the host computed from the first call's output array — the first
  layer of the arrays the first call was entered with, which the host computed from the arguments.
  Substituting each array by its term gives the network `net` of the argument arrays.
-/
import proofs.«117927_j42855183680027_1_alg».proof.Proof.KernelRun
import proofs.«117927_j42855183680027_1_alg».proof.Proof.Call0
import proofs.«117927_j42855183680027_1_alg».proof.Proof.Call1
import proofs.«117927_j42855183680027_1_alg».proof.Proof.HostReads
import proofs.«117927_j42855183680027_1_alg».proof.Proof.RefLayers

set_option maxRecDepth 16384

noncomputable section

namespace Cert.KernelIdeal.Out

open Cert.KernelIdeal Cert.KernelIdeal.Gen Cert.SageRows
open Idealize.ShloMosaic Idealize.ShloMosaic.TcCoe Idealize.SL.Sem
open Cert.ReferenceIdeal.Layers (net hidden)

variable (m : (ℓ : Loc nD τ sig) → Buf (Elt Ideal) ℓ) (ρ : Dev nD → PrngReg)

/-- The first call's output array: the hidden features. -/
theorem hidden_eq (c : Dev nD) : W2 m ρ c (Proc.devRef .tc main_v22)
    = hidden (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) Facts₀.shapeCasts_S50000_S50000x1 Facts₀.shapeCasts_S64_S1x64 :=
  (W2_arr m ρ c 6).trans ((Call0.final (V1 m ρ) c).trans (by
    rw [Host.sums1 m ρ c, Host.counts1 m ρ c, Host.feats1 m ρ c, Host.wl1 m ρ c, Host.bias1 m ρ c, Host.wr1 m ρ c]
    rfl))

/-- The result buffer's final contents: the network of the arguments. -/
theorem result_eq (c : Dev nD) : W4 m ρ c (Proc.devRef .tc main_v36)
    = net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        Facts₀.shapeCasts_S50000_S50000x1 Facts₀.shapeCasts_S64_S1x64 :=
  (W4_arr m ρ c 6).trans ((Call1.final (V3 m ρ) c).trans (by
    rw [Host.sums2 m ρ c, Host.counts2 m ρ c, Host.counts1 m ρ c, Host.feats2 m ρ c, Host.wl2 m ρ c, Host.bias2 m ρ c,
      Host.wr2 m ρ c, hidden_eq m ρ c]
    rfl))

/-- The run, with the result named by the network. -/
theorem run : θ_run defs (onTc (τ := τ) (main (F := Ideal))) ⟨m, fun _ => 0, ρ⟩ (fun r => ∀ c : Dev nD,
      r.2.mem ((c.tc : Thread nD τ).loc main_v36)
        = net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
            Facts₀.shapeCasts_S50000_S50000x1 Facts₀.shapeCasts_S64_S1x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named m ρ)

end Cert.KernelIdeal.Out

end
-- ==== Proof.lean ====
/-
  Two layers of mean-aggregation graph convolution, kernel against reference, on the extended reals.

  Both programs gather the source rows of the node features, scatter-add them at the destination rows
  (neighbour sums) and scatter-add ones there (neighbour counts); divide the sums by the counts clamped
  below by one; multiply by a transposed weight matrix, add a bias, add the features times a second
  transposed weight matrix; apply the leaky rectifier; and repeat with the result in the features' place,
  ending with each row over its Euclidean norm clamped below. The kernel does the dense part of each
  layer in a call tiled over blocks of 10000 rows, narrowing the matrix operands to a half-width format
  first; the reference does it on whole arrays. On the extended reals the narrowing is the identity, a
  matrix product into a zero accumulator and the host's product are the same 64-term sums, a lane sum and
  the host's sum are the same sum, and a row of a layer reads only that row of the row-tiled arrays, so the
  blocks the kernel writes back are the blocks of the reference's whole-array result. The gathers and
  scatters are the same operations on both sides and are never opened. No step uses that the inputs are
  finite.
-/
import proofs.«117927_j42855183680027_1_alg».proof.Defs
import proofs.«117927_j42855183680027_1_alg».proof.Proof.Gen.Kernel
import proofs.«117927_j42855183680027_1_alg».proof.Proof.Gen.Kernel.Skeleton
import proofs.«117927_j42855183680027_1_alg».proof.Proof.Gen.Kernel.Launch
import proofs.«117927_j42855183680027_1_alg».proof.Proof.Gen.Kernel.Points
import proofs.«117927_j42855183680027_1_alg».proof.Proof.Gen.Kernel.Frame
import proofs.«117927_j42855183680027_1_alg».proof.Proof.Gen.KernelIdeal
import proofs.«117927_j42855183680027_1_alg».proof.Proof.Gen.KernelIdeal.Skeleton
import proofs.«117927_j42855183680027_1_alg».proof.Proof.Gen.KernelIdeal.Launch
import proofs.«117927_j42855183680027_1_alg».proof.Proof.Gen.KernelIdeal.Points
import proofs.«117927_j42855183680027_1_alg».proof.Proof.Gen.KernelIdeal.Frame
import proofs.«117927_j42855183680027_1_alg».proof.Proof.Gen.ReferenceIdeal
import proofs.«117927_j42855183680027_1_alg».proof.Proof.Gen.ReferenceIdeal.Run
import proofs.«117927_j42855183680027_1_alg».proof.Proof.Gen.ReferenceIdeal.Read
import proofs.«117927_j42855183680027_1_alg».proof.Proof.Gen.Pre_finite_inputs
import proofs.«117927_j42855183680027_1_alg».proof.Proof.KernelValue
import proofs.«117927_j42855183680027_1_alg».proof.Proof.RefLayers
import Idealize.ShloMosaic.Adequacy
import Idealize.ShloMosaic.Init

set_option maxRecDepth 16384

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the network of the argument arrays; the arguments agree. -/
theorem algebraic : Cert.algebraic_KernelIdeal_ReferenceIdeal := by
  intro m ρ m' ρ' _ hagree
  refine ⟨fun c => Cert.ReferenceIdeal.Layers.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      Cert.KernelIdeal.Facts₀.shapeCasts_S50000_S50000x1 Cert.KernelIdeal.Facts₀.shapeCasts_S64_S1x64,
    Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v71_eq, h0, h1, h3, h4, h5, h6, h7, h8]
  exact Cert.ReferenceIdeal.Layers.ref_eq _ _ _ _ _ _ _ _
    Cert.KernelIdeal.Facts₀.shapeCasts_S50000_S50000x1 Cert.KernelIdeal.Facts₀.shapeCasts_S64_S1x64

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
